-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x256 : Shape := ⟨2, ![1024, 256]⟩
abbrev S1x256 : Shape := ⟨2, ![1, 256]⟩
abbrev S256x2048 : Shape := ⟨2, ![256, 2048]⟩
abbrev S1024x2048 : Shape := ⟨2, ![1024, 2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .bf16⟩
  | .hbm, ⟨5, _⟩ => ⟨S8192x4096, .f32⟩
  | .local _ .vmem, ⟨0, _⟩ => ⟨S1024x256, .f32⟩
  | .local _ .vmem, ⟨1, _⟩ => ⟨S1024x256, .f32⟩
  | .local _ .vmem, ⟨2, _⟩ => ⟨S1x256, .f32⟩
  | .local _ .vmem, ⟨3, _⟩ => ⟨S1x256, .f32⟩
  | .local _ .vmem, ⟨4, _⟩ => ⟨S256x2048, .bf16⟩
  | .local _ .vmem, ⟨5, _⟩ => ⟨S256x2048, .bf16⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v21 : BitVec 1 := Scalar.cmpi .eq arg2 c15_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .f32 = 32 ∨ (Rect.block (s := S8192x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x4096.size a
  hwx0_1 : ∀ i : grid0.Coords, EltTy.bits .f32 = 32 ∨ (Rect.block (s := S1x4096) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x4096.size a
  hwx0_2 : ∀ i : grid0.Coords, EltTy.bits .bf16 = 32 ∨ (Rect.block (s := S4096x4096) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_call1_cst : Ref sig .tc := ⟨.hbm, 14, rfl⟩
abbrev main_call1_v0 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one step of the kernel body leaves behind, as pure functions of what it loaded.

  The body keeps a running block `acc : [1024, 2048]` between grid steps.  At a step it loads a block `x0` of
  the input, a block `x1` of the bias row and a block `x2` of the weight, and stores back
  `step x0 x1 x2 acc` (the generated payload `k0_pay2`): the old accumulator plus this step's product.
  Three kinds of step occur, by the position `k` of the step along the contracted axis:

    first  (k = 0)        the accumulator is first overwritten with zeros (`k0_pay1`), then stepped;
    middle (0 < k < 15)   the accumulator is stepped;
    last   (k = 15)       the accumulator is stepped, and its clamp at zero (`k0_pay3`) is stored to the
                          output block.

  Each lemma below reads the stores a step made back as one such term: a store through the whole buffer
  replaces its contents, and a load after a store reads what was stored.
-/
import proofs.«121180_j31825707663797_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- A middle step leaves the accumulator at the old one stepped by the loaded blocks. -/
theorem scratch_B (c : Dev nD) (i : grid0.Coords) (arg3 : Memref sig .tc .vmem S1024x256 .f32) (harg3 : arg3.IsWhole) (arg4 : Memref sig .tc .vmem S1x256 .f32) (harg4 : arg4.IsWhole) (arg5 : Memref sig .tc .vmem S256x2048 .bf16) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x256 .f32) (x1 : Vec F S1x256 .f32) (x2 : Vec F S256x2048 .bf16) (xs0 : Vec F S1024x2048 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg5.read_unread, harg7.read_unread, View.ld_unit_zero (S := S1024x256) hz, View.ld_unit_zero (S := S1x256) hz, View.ld_unit_zero (S := S256x2048) hz, View.ld_unit_zero (S := S1024x2048) hz]

/-- A first step leaves the accumulator at zero stepped by the loaded blocks: the zeros it stored are what its
    own later load of the accumulator reads. -/
theorem scratch_A (c : Dev nD) (i : grid0.Coords) (arg3 : Memref sig .tc .vmem S1024x256 .f32) (harg3 : arg3.IsWhole) (arg4 : Memref sig .tc .vmem S1x256 .f32) (harg4 : arg4.IsWhole) (arg5 : Memref sig .tc .vmem S256x2048 .bf16) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x256 .f32) (x1 : Vec F S1x256 .f32) (x2 : Vec F S256x2048 .bf16) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, harg3.read_unread, harg4.read_unread, harg5.read_unread, harg7.read_unread, View.ld_unit_zero (S := S1024x256) hz, View.ld_unit_zero (S := S1x256) hz, View.ld_unit_zero (S := S256x2048) hz, View.ld_unit_zero (S := S1024x2048) hz]

/-- A last step leaves the accumulator as a middle step does; -/
theorem scratch_C (c : Dev nD) (i : grid0.Coords) (arg3 : Memref sig .tc .vmem S1024x256 .f32) (harg3 : arg3.IsWhole) (arg4 : Memref sig .tc .vmem S1x256 .f32) (harg4 : arg4.IsWhole) (arg5 : Memref sig .tc .vmem S256x2048 .bf16) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x256 .f32) (x1 : Vec F S1x256 .f32) (x2 : Vec F S256x2048 .bf16) (xs0 : Vec F S1024x2048 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S1024x256) hz, View.ld_unit_zero (S := S1x256) hz, View.ld_unit_zero (S := S256x2048) hz, View.ld_unit_zero (S := S1024x2048) hz]

/-- and stores to the output block the clamp of the accumulator it has just written. -/
theorem out_C (c : Dev nD) (i : grid0.Coords) (arg3 : Memref sig .tc .vmem S1024x256 .f32) (harg3 : arg3.IsWhole) (arg4 : Memref sig .tc .vmem S1x256 .f32) (harg4 : arg4.IsWhole) (arg5 : Memref sig .tc .vmem S256x2048 .bf16) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x256 .f32) (x1 : Vec F S1x256 .f32) (x2 : Vec F S256x2048 .bf16) (xs0 : Vec F S1024x2048 .f32) :
    out0_C_3 c i arg3 harg3 arg4 harg4 arg5 harg5 arg6 harg6 arg7 harg7 hc0 hc1 x0 x1 x2 xs0 = k0_pay3 (k0_pay2 x0 x1 x2 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x2048) _ hz]
  simp only [View.readAt_eq_ld, harg3.read_unread, harg4.read_unread, harg5.read_unread, harg7.read_unread, View.ld_unit_zero (S := S1024x256) hz, View.ld_unit_zero (S := S1x256) hz, View.ld_unit_zero (S := S256x2048) hz, View.ld_unit_zero (S := S1024x2048) hz]

end Cert.KernelIdeal.Pieces
end
-- ==== Proof.BlockSum.lean ====
/-
  Regrouping a finite sum of 4096 terms into 16 consecutive blocks of 256.

  The kernel walks the contracted axis in 16 steps of 256 columns and adds each step's product
  into an accumulator; the reference contracts all 4096 columns at once.  Both are sums in a
  commutative monoid (the extended reals under addition), so only commutativity and associativity are
  used: no term needs to be finite.
-/
import Mathlib.Algebra.BigOperators.Fin
import Mathlib.Algebra.BigOperators.Intervals
import Mathlib.Data.Fintype.BigOperators

namespace Cert.BlockSum

open Finset

variable {M : Type*} [AddCommMonoid M]

/-- Column `256 * k + q` of the contracted axis: block `k`, offset `q`. -/
def col (k : Fin 16) (q : Fin 256) : Fin 4096 := ⟨256 * k.val + q.val, by omega⟩

@[simp] theorem col_val (k : Fin 16) (q : Fin 256) : (col k q).val = 256 * k.val + q.val := rfl

/-- The pairs (block, offset) enumerate the 4096 columns. -/
def colEquiv : Fin 16 × Fin 256 ≃ Fin 4096 where
  toFun p := col p.1 p.2
  invFun j := (⟨j.val / 256, by omega⟩, ⟨j.val % 256, Nat.mod_lt _ (by decide)⟩)
  left_inv p := by
    rcases p with ⟨k, q⟩
    ext <;> simp only [col_val] <;> omega
  right_inv j := by
    ext; simp only [col_val]; omega

/-- A sum over all 4096 columns is the sum over the 16 blocks of each block's 256 columns. -/
theorem sum_blocks (f : Fin 4096 → M) :
    ∑ j : Fin 4096, f j = ∑ k : Fin 16, ∑ q : Fin 256, f (col k q) := by
  rw [← Fintype.sum_prod_type' (fun k q => f (col k q))]
  exact (Equiv.sum_comp colEquiv f).symm

/-- The same with the blocks counted by naturals below 16, as a running accumulation counts them:
    `B s` is block `s`'s sum whenever `s < 16`. -/
theorem sum_blocks_range (f : Fin 4096 → M) (B : ℕ → M)
    (hB : ∀ k : Fin 16, B k.val = ∑ q : Fin 256, f (col k q)) :
    ∑ j : Fin 4096, f j = ∑ s ∈ Finset.range 16, B s := by
  rw [sum_blocks, Finset.sum_range]
  exact Finset.sum_congr rfl fun k _ => (hB k).symm

end Cert.BlockSum
-- ==== Proof.Spec.lean ====
/-
  The function both programs compute, stated once over the argument arrays.

  For an input `x : [8192, 4096]`, a weight `w : [4096, 4096]` and a bias `b : [4096]`, read as extended
  reals, the result at row `r` and column `n` is

      max (∑ j, e r j * w j n) 0      with  e r j = if x r j ≠ 0 then x r j + b j else 0:

  the input is shifted by the bias where it is non-zero and left at zero elsewhere, multiplied into the
  weight, and clamped below at zero.  A change of float format is the identity on extended reals, so the
  kernel's narrowing of both matrix operands does not appear.

  The kernel contracts the 4096 columns in 16 consecutive blocks of 256, adding one block's product per
  step into an accumulator that starts at zero; `result_of_blocks` says the accumulated sum is the whole
  contraction, by commutativity and associativity of addition alone.
-/
import Idealize.ShloMosaic.PureOps.Ideal
import Idealize.ShloMosaic.PureOps.Ideal.Laws
import Idealize.ShloMosaic.Lib.ValueIdx
import proofs.«121180_j31825707663797_2_alg».proof.Proof.BlockSum

noncomputable section

namespace Cert.MaskedLinear

open Idealize.ShloMosaic Idealize.ShloMosaic.ValueIdx Cert.BlockSum

/-- The shapes of the three arguments (the result has the input's). -/
abbrev SX : Shape := ⟨2, ![8192, 4096]⟩
abbrev SW : Shape := ⟨2, ![4096, 4096]⟩
abbrev SB : Shape := ⟨1, ![4096]⟩

/-- One entry of the masked, shifted input: `x + b` where `x ≠ 0`, and `0` where `x = 0`. -/
def entry (x b : EReal) : EReal := Scalar.select (Ideal.cmp .one x 0) (x + b) 0

/-- On extended reals there is no unordered pair, so "unordered or not equal" is "not equal". -/
theorem cmp_une (x y : EReal) : Ideal.cmp .une x y = Ideal.cmp .one x y := rfl

/-- The product summed at row `r`, column `n`, contracted column `j`. -/
def term (x : SX.Idx → EReal) (w : SW.Idx → EReal) (b : SB.Idx → EReal) (r : Fin 8192) (n : Fin 4096) (j : Fin 4096) : EReal :=
  entry (x (ix2 r j)) (b (ix1 j)) * w (ix2 j n)

/-- THE RESULT: the masked, shifted input times the weight, clamped below at zero. -/
def result (x : SX.Idx → EReal) (w : SW.Idx → EReal) (b : SB.Idx → EReal) : SX.Idx → EReal :=
  fun i => max (∑ j : Fin 4096, term x w b (i 0) (i 1) j) 0

/-- Block `s` of the contraction at row `r`, column `n`: the 256 columns `256 s … 256 s + 255`
    (and `0` for an `s` that names no block, which nothing reads). -/
def blockSum (x : SX.Idx → EReal) (w : SW.Idx → EReal) (b : SB.Idx → EReal) (r : Fin 8192) (n : Fin 4096) (s : ℕ) : EReal :=
  if h : s < 16 then ∑ q : Fin 256, term x w b r n (col ⟨s, h⟩ q) else 0

/-- An accumulator that starts at zero and receives the 16 blocks in order ends at the whole contraction;
    clamped, it is the result. -/
theorem result_of_blocks (x : SX.Idx → EReal) (w : SW.Idx → EReal) (b : SB.Idx → EReal) (i : SX.Idx) :
    max ((0 : EReal) + ∑ s ∈ Finset.range 16, blockSum x w b (i 0) (i 1) s) 0 = result x w b i := by
  unfold result
  rw [zero_add, sum_blocks_range (term x w b (i 0) (i 1)) (blockSum x w b (i 0) (i 1))]
  intro k
  unfold blockSum
  rw [dif_pos k.isLt]

end Cert.MaskedLinear

end
-- ==== Proof.Payload.lean ====
/-
  The body's arithmetic read at an index, on extended reals.

  With `x0 : [1024, 256]` a block of the input, `x1 : [1, 256]` the matching stretch of the bias row,
  `x2 : [256, 2048]` a block of the weight and `acc : [1024, 2048]` the accumulator, the step
  `k0_pay2 x0 x1 x2 acc` at row `p`, column `n` is

      acc p n + ∑ q, e p q * x2 q n       with  e p q = if x0 p q ≠ 0 then x0 p q + x1 0 q else 0:

  the bias row is broadcast down the rows, the mask selects the shifted entry or zero, the narrowing of the
  operands is the identity on extended reals, and a matrix product into a zero accumulator is the plain sum of
  products.  The reset `k0_pay1` is zero everywhere and the epilogue `k0_pay3 v` is `max v 0` entrywise.
-/
import proofs.«121180_j31825707663797_2_alg».proof.Proof.Gen.KernelIdeal.Skeleton
import proofs.«121180_j31825707663797_2_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.MaskedLinear

/-- The reset block is zero at every index. -/
theorem pay1_apply (j : S1024x2048.Idx) : k0_pay1 (F := Ideal) j = 0 := by
  unfold k0_pay1
  simp only [shapeCast_self]
  exact Ideal.ofBits_zero_f32

/-- The epilogue clamps below at zero, entry by entry. -/
theorem pay3_apply (v : Vec Ideal S1024x2048 .f32) (j : S1024x2048.Idx) : k0_pay3 v j = max (v j) 0 := by
  unfold k0_pay3
  show max (v j) (Ideal.ofBits .f32 0x00000000#32) = _
  rw [Ideal.ofBits_zero_f32]

/-! ### The block product's operand indices: row `p` of the left block against column `n` of the right -/

theorem lhs0 (j : S1024x2048.Idx) (q : dot_S1024x256_S256x2048_S1024x2048_1_0_0_1_n_n.contr.Idx) :
    (dot_S1024x256_S256x2048_S1024x2048_1_0_0_1_n_n.lhsIdx j q 0).val = (j 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
theorem lhs1 (j : S1024x2048.Idx) (q : dot_S1024x256_S256x2048_S1024x2048_1_0_0_1_n_n.contr.Idx) :
    (dot_S1024x256_S256x2048_S1024x2048_1_0_0_1_n_n.lhsIdx j q 1).val = (q ⟨0, by decide⟩).val :=
  dot_S1024x256_S256x2048_S1024x2048_1_0_0_1_n_n.lhsIdx_val_of_single rfl j q
theorem rhs0 (j : S1024x2048.Idx) (q : dot_S1024x256_S256x2048_S1024x2048_1_0_0_1_n_n.contr.Idx) :
    (dot_S1024x256_S256x2048_S1024x2048_1_0_0_1_n_n.rhsIdx j q 0).val = (q ⟨0, by decide⟩).val :=
  dot_S1024x256_S256x2048_S1024x2048_1_0_0_1_n_n.rhsIdx_val_of_single rfl j q
theorem rhs1 (j : S1024x2048.Idx) (q : dot_S1024x256_S256x2048_S1024x2048_1_0_0_1_n_n.contr.Idx) :
    (dot_S1024x256_S256x2048_S1024x2048_1_0_0_1_n_n.rhsIdx j q 1).val = (j 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-- A block product into the zero accumulator, at row `p` and column `n`, is the sum over the 256 contracted
    positions of left entry times right entry. -/
theorem blockProduct_apply (l : FVec Ideal S1024x256 .bf16) (r : FVec Ideal S256x2048 .bf16) (p : Fin 1024) (n : Fin 2048) :
    matmul dot_S1024x256_S256x2048_S1024x2048_1_0_0_1_n_n none l r (constant (F := Ideal) S1024x2048 .f32 0x00000000#32) (ix2 p n)
      = ∑ q : Fin 256, l (ix2 p q) * r (ix2 q n) := by
  simp only [matmul]
  rw [Ideal.matmul_constant_zero_apply, ← Equiv.sum_comp (contrEquiv1 dot_S1024x256_S256x2048_S1024x2048_1_0_0_1_n_n 256 rfl rfl).symm]
  refine Finset.sum_congr rfl fun q _ => ?_
  have hq := contrEquiv1_symm_val dot_S1024x256_S256x2048_S1024x2048_1_0_0_1_n_n 256 rfl rfl q
  have el : dot_S1024x256_S256x2048_S1024x2048_1_0_0_1_n_n.lhsIdx (ix2 p n) ((contrEquiv1 dot_S1024x256_S256x2048_S1024x2048_1_0_0_1_n_n 256 rfl rfl).symm q) = ix2 p q := funext fun a => Fin.ext (by
    match a with
    | ⟨0, _⟩ => exact lhs0 _ _
    | ⟨1, _⟩ => exact (lhs1 _ _).trans hq)
  have er : dot_S1024x256_S256x2048_S1024x2048_1_0_0_1_n_n.rhsIdx (ix2 p n) ((contrEquiv1 dot_S1024x256_S256x2048_S1024x2048_1_0_0_1_n_n 256 rfl rfl).symm q) = ix2 q n := funext fun a => Fin.ext (by
    match a with
    | ⟨0, _⟩ => exact (rhs0 _ _).trans hq
    | ⟨1, _⟩ => exact rhs1 _ _)
  rw [el, er]

/-- The bias row broadcast down the rows: at row `p`, position `q` it is the row's entry at `q`. -/
theorem biasRows_apply (v4 : Vec Ideal S1x256 .f32) (p : Fin 1024) (q : Fin 256) :
    broadcastTo S1024x256 v4 broadcasts_S1x256_S1024x256 (ix2 p q) = v4 (ix2 (0 : Fin 1) q) :=
  broadcastTo_apply v4 broadcasts_S1x256_S1024x256 (ix2 p q) (ix2 (0 : Fin 1) q) (fun a => by
    match a with
    | ⟨0, _⟩ => show (0 : ℕ) = if (1 : ℕ) = 1 then 0 else _; rw [if_pos rfl]
    | ⟨1, _⟩ => show q.val = if (256 : ℕ) = 1 then 0 else q.val; rw [if_neg (by decide)])

/-- ONE STEP at row `p`, column `n`: the old accumulator plus this block's masked, shifted product. -/
theorem pay2_apply (v3 : Vec Ideal S1024x256 .f32) (v4 : Vec Ideal S1x256 .f32) (v13 : Vec Ideal S256x2048 .bf16)
    (v15 : Vec Ideal S1024x2048 .f32) (p : Fin 1024) (n : Fin 2048) :
    k0_pay2 v3 v4 v13 v15 (ix2 p n)
      = v15 (ix2 p n) + ∑ q : Fin 256, entry (v3 (ix2 p q)) (v4 (ix2 (0 : Fin 1) q)) * v13 (ix2 q n) := by
  unfold k0_pay2
  simp only [shapeCast_self]
  refine congrArg (v15 (ix2 p n) + ·) ?_
  refine (blockProduct_apply _ _ p n).trans ?_
  refine Finset.sum_congr rfl fun q _ => ?_
  refine congrArg (· * v13 (ix2 q n)) ?_
  show Scalar.select (Ideal.cmp .one (v3 (ix2 p q)) (Ideal.ofBits .f32 0x00000000#32))
      (v3 (ix2 p q) + broadcastTo S1024x256 v4 broadcasts_S1x256_S1024x256 (ix2 p q)) (Ideal.ofBits .f32 0x00000000#32) = _
  rw [biasRows_apply, Ideal.ofBits_zero_f32]
  rfl

end Cert.KernelIdeal.Payload

end
-- ==== Proof.Blocks.lean ====
/-
  The blocks a grid step loads, read at an index of the argument arrays.

  The grid has 8 × 2 × 16 steps; step `t = 32 i + 16 j + k` works on row block `i` (1024 rows), column block
  `j` (2048 columns) and contracted block `k` (256 columns).  Its three input blocks are

    the input's   rows 1024 i …, columns 256 k …      (block index (i, k));
    the bias row's             columns 256 k …        (block index (0, k)), the bias viewed as one row;
    the weight's  rows 256 k …,  columns 2048 j …     (block index (k, j)), the weight narrowed, which on
                                                       extended reals changes nothing;

  and it writes row block `i`, column block `j` of the result.  An entry of a block is the array's entry at
  block index × block size + the position inside the block.
-/
import proofs.«121180_j31825707663797_2_alg».proof.Proof.Gen.KernelIdeal.Frame
import proofs.«121180_j31825707663797_2_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Blocks
open Cert.KernelIdeal Cert.KernelIdeal.Gen
variable (m : (ℓ : Loc nD τ sig) → Buf (Elt Ideal) ℓ)

/-- The index maps over the whole grid: which block of each array step `t` works on. -/
theorem idx_facts : ∀ t : Fin cfg0.N,
    win0_0.index t (0 : Fin 2) = t.val / 32 ∧ win0_0.index t (1 : Fin 2) = t.val % 16
    ∧ win0_1.index t (0 : Fin 2) = 0 ∧ win0_1.index t (1 : Fin 2) = t.val % 16
    ∧ win0_2.index t (0 : Fin 2) = t.val % 16 ∧ win0_2.index t (1 : Fin 2) = t.val / 16 % 2
    ∧ win0_3.index t (0 : Fin 2) = t.val / 32 ∧ win0_3.index t (1 : Fin 2) = t.val / 16 % 2 :=
  (by decide +kernel : ∀ t : Fin grid0.N, _)

/-- When the kernel starts, the bias row it reads is the bias argument viewed as a 1 × 4096 array, -/
theorem V_bias (c : Dev nD) :
    (V m c main_v0 : S1x4096.Idx → EReal) = shapeCast S1x4096 (m ((c : Thread nD τ).loc main_arg2)) shapeCasts_S4096_S1x4096 := by
  dsimp only [Gen.V, Gen.hostOps0]
  after_results
  rfl

/-- and the narrowed weight it reads is, on extended reals, the weight argument itself. -/
theorem V_weight (c : Dev nD) :
    (V m c main_v1 : S4096x4096.Idx → EReal) = m ((c : Thread nD τ).loc main_arg1) := by
  dsimp only [Gen.V, Gen.hostOps0]
  after_results
  rfl

/-- The bias row at column `k` is the bias at `k`. -/
theorem V_bias_apply (c : Dev nD) (k : Fin 4096) :
    (V m c main_v0 : S1x4096.Idx → EReal) (ix2 (0 : Fin 1) k) = m ((c : Thread nD τ).loc main_arg2) (ix1 k) := by
  rw [V_bias]
  refine shapeCast_apply _ shapeCasts_S4096_S1x4096 (ix2 (0 : Fin 1) k) (ix1 k) ?_
  rw [Shape.rowMajor_val_one, Shape.rowMajor_val_two]
  show k.val = 0 * 4096 + k.val
  omega

/-- The input block of step `t` at row `p`, position `q`: the input at row `1024 (t / 32) + p`, column
    `256 (t % 16) + q`. -/
theorem input_block (c : Dev nD) (t : Fin cfg0.N) (p : Fin 1024) (q : Fin 256) (i : S8192x4096.Idx)
    (h0 : (i 0).val = 1024 * (t.val / 32) + p.val) (h1 : (i 1).val = 256 * (t.val % 16) + q.val) :
    (iblk m c 0 t : Vec Ideal S1024x256 .f32) (ix2 p q) = m ((c : Thread nD τ).loc main_arg0) i := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = (i 0).val; rw [e0, h0]; omega
  | ⟨1, _⟩ => show win0_0.index t (1 : Fin 2) * 256 + 1 * q.val = (i 1).val; rw [e1, h1]; omega

/-- The bias block of step `t` at position `q`: the bias at `256 (t % 16) + q`. -/
theorem bias_block (c : Dev nD) (t : Fin cfg0.N) (q : Fin 256) (k : Fin 4096)
    (h : k.val = 256 * (t.val % 16) + q.val) :
    (iblk m c 1 t : Vec Ideal S1x256 .f32) (ix2 (0 : Fin 1) q) = m ((c : Thread nD τ).loc main_arg2) (ix1 k) := by
  obtain ⟨-, -, e0, e1, -⟩ := idx_facts t
  rw [← V_bias_apply m c k]
  unfold iblk
  rw [View.read_apply]
  show V m c main_v0 _ = _
  refine congrArg _ (funext fun a => Fin.ext ?_)
  match a with
  | ⟨0, _⟩ => show win0_1.index t (0 : Fin 2) * 1 + 1 * 0 = 0; rw [e0]
  | ⟨1, _⟩ => show win0_1.index t (1 : Fin 2) * 256 + 1 * q.val = k.val; rw [e1, h]; omega

/-- The weight block of step `t` at position `q`, column `n`: the weight at row `256 (t % 16) + q`, column
    `2048 (t / 16 % 2) + n`. -/
theorem weight_block (c : Dev nD) (t : Fin cfg0.N) (q : Fin 256) (n : Fin 2048) (i : S4096x4096.Idx)
    (h0 : (i 0).val = 256 * (t.val % 16) + q.val) (h1 : (i 1).val = 2048 * (t.val / 16 % 2) + n.val) :
    (iblk m c 2 t : Vec Ideal S256x2048 .bf16) (ix2 q n) = m ((c : Thread nD τ).loc main_arg1) i := by
  obtain ⟨-, -, -, -, e0, e1, -⟩ := idx_facts t
  rw [← V_weight m c]
  unfold iblk
  rw [View.read_apply]
  show V m c main_v1 _ = _
  refine congrArg _ (funext fun a => Fin.ext ?_)
  match a with
  | ⟨0, _⟩ => show win0_2.index t (0 : Fin 2) * 256 + 1 * q.val = (i 0).val; rw [e0, h0]; omega
  | ⟨1, _⟩ => show win0_2.index t (1 : Fin 2) * 2048 + 1 * n.val = (i 1).val; rw [e1, h1]; omega

end Cert.KernelIdeal.Blocks
end
-- ==== Proof.Accum.lean ====
/-
  The accumulator over a tile's 16 steps, and what the last step writes back.

  Steps `16 d, 16 d + 1, …, 16 d + 15` work on one output tile.  The first resets the accumulator to zero and
  adds its block's product; each later one adds its own to what the step before left.  So after step
  `16 d + k` the accumulator holds, at row `p` and column `n` of the tile,

      0 + ∑ s ≤ k, A (16 d + s) p n,     A u p n = ∑ q, e_u p q * w_u q n

  with `e_u`, `w_u` the masked, shifted input block and the weight block of step `u`.  The last step
  (`k = 15`) then writes the clamp of that sum to the tile.  Read at the arrays' own indices, `A (16 d + s)`
  is block `s` of the specification's contraction.
-/
import proofs.«121180_j31825707663797_2_alg».proof.Proof.Gen.KernelIdeal.Value
import proofs.«121180_j31825707663797_2_alg».proof.Proof.Pieces
import proofs.«121180_j31825707663797_2_alg».proof.Proof.Payload
import proofs.«121180_j31825707663797_2_alg».proof.Proof.Blocks

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Accum
open Cert.KernelIdeal Cert.KernelIdeal.Gen Cert.KernelIdeal.Value Cert.MaskedLinear Cert.BlockSum
variable (m : (ℓ : Loc nD τ sig) → Buf (Elt Ideal) ℓ)

/-- What step `u` adds to the accumulator at row `p`, column `n` of the tile: its masked, shifted input block
    times its weight block (and `0` for a `u` that names no step, which nothing reads). -/
def addend (c : Dev nD) (u : ℕ) (p : Fin 1024) (n : Fin 2048) : EReal :=
  if h : u < cfg0.N then
    ∑ q : Fin 256, entry ((iblk m c 0 ⟨u, h⟩ : Vec Ideal S1024x256 .f32) (ix2 p q))
        ((iblk m c 1 ⟨u, h⟩ : Vec Ideal S1x256 .f32) (ix2 (0 : Fin 1) q))
      * (iblk m c 2 ⟨u, h⟩ : Vec Ideal S256x2048 .bf16) (ix2 q n)
  else 0

/-- A tile's first step leaves `0 +` its addend, whatever the accumulator held. -/
theorem step_first (c : Dev nD) (u : ℕ) (hb : u < cfg0.N) (acc : Vec Ideal S1024x2048 .f32) (h0 : u % 16 = 0)
    (j : S1024x2048.Idx) : scAt0_0 m c u hb acc j = 0 + addend m c u (j 0) (j 1) := by
  obtain ⟨p, n, rfl⟩ : ∃ (p : Fin 1024) (n : Fin 2048), j = ix2 p n := ⟨j 0, j 1, eq_ix2 j⟩
  show scAt0_0 m c u hb acc (ix2 p n) = 0 + addend m c u p n
  unfold scAt0_0
  rw [dif_pos h0, dif_neg (by omega), Pieces.scratch_A]
  unfold addend
  rw [dif_pos hb]
  exact (Payload.pay2_apply (iblk m c 0 ⟨u, hb⟩) (iblk m c 1 ⟨u, hb⟩) (iblk m c 2 ⟨u, hb⟩) (k0_pay1 (F := Ideal)) p n).trans
    (congrArg (· + _) (Payload.pay1_apply (ix2 p n)))

/-- Every other step leaves what it found plus its addend. -/
theorem step_later (c : Dev nD) (u : ℕ) (hb : u < cfg0.N) (acc : Vec Ideal S1024x2048 .f32) (h0 : ¬u % 16 = 0)
    (j : S1024x2048.Idx) : scAt0_0 m c u hb acc j = acc j + addend m c u (j 0) (j 1) := by
  obtain ⟨p, n, rfl⟩ : ∃ (p : Fin 1024) (n : Fin 2048), j = ix2 p n := ⟨j 0, j 1, eq_ix2 j⟩
  show scAt0_0 m c u hb acc (ix2 p n) = acc (ix2 p n) + addend m c u p n
  unfold scAt0_0
  rw [dif_neg h0]
  unfold addend
  rw [dif_pos hb]
  by_cases h1 : u % 16 = 15
  · rw [dif_pos h1, Pieces.scratch_C]
    exact Payload.pay2_apply (iblk m c 0 ⟨u, hb⟩) (iblk m c 1 ⟨u, hb⟩) (iblk m c 2 ⟨u, hb⟩) acc p n
  · rw [dif_neg h1, Pieces.scratch_B]
    exact Payload.pay2_apply (iblk m c 0 ⟨u, hb⟩) (iblk m c 1 ⟨u, hb⟩) (iblk m c 2 ⟨u, hb⟩) acc p n

/-- THE ACCUMULATOR after step `t`: zero plus the addends of the tile's steps up to `t`. -/
theorem acc_after (c : Dev nD) (t : Fin cfg0.N) (j : S1024x2048.Idx) :
    (outsAt0 m c t.val t.isLt).2 j
      = 0 + ∑ s ∈ Finset.range (t.val % 16 + 1), addend m c (16 * (t.val / 16) + s) (j 0) (j 1) := by
  rw [Value.soutsAt0_0_eq m c t]
  exact Pipeline.accAt_add_apply (fun u h => scAt0_0 m c u h (VS0_0.read (Elt Ideal) VS0_0.junk)) (scAt0_0 m c)
    (fun _ => (0 : EReal)) (fun u j => addend m c u (j 0) (j 1)) (16 * (t.val / 16)) 15
    (fun h i => step_first m c _ h _ (Nat.mul_mod_right 16 _) i)
    (fun u h acc i hlo hhi => step_later m c u h acc (by omega) i)
    (t.val % 16) (by omega) _ j

/-- WHAT A TILE'S LAST STEP WRITES BACK: the clamp of the accumulator it has just completed. -/
theorem written_back (c : Dev nD) (t : Fin cfg0.N) (h15 : t.val % 16 = 15) :
    (dats m 0 c).flushed 3 t = (cfg0.win 3).cut (grid0.coords t) (k0_pay3 ((outsAt0 m c t.val t.isLt).2)) := by
  have h0 : ¬t.val % 16 = 0 := by omega
  rw [Value.flushed3_C m c t h0 h15, Pieces.out_C, outsAt0_C m c t h0 h15]
  dsimp only
  rw [Pieces.scratch_C]

/-- Step `16 d + s`'s addend, read at the arrays' own indices, is block `s` of the specification's contraction
    at the tile's row and column. -/
theorem addend_eq (c : Dev nD) (t : Fin cfg0.N) (s : ℕ) (hs : s < 16) (p : Fin 1024) (n : Fin 2048)
    (r : Fin 8192) (n' : Fin 4096) (h0 : r.val = 1024 * (t.val / 32) + p.val) (h1 : n'.val = 2048 * (t.val / 16 % 2) + n.val) :
    addend m c (16 * (t.val / 16) + s) p n
      = blockSum (m ((c : Thread nD τ).loc main_arg0)) (m ((c : Thread nD τ).loc main_arg1)) (m ((c : Thread nD τ).loc main_arg2)) r n' s := by
  have hN : cfg0.N = 256 := N_0
  have ht : t.val < cfg0.N := t.isLt
  have hb : 16 * (t.val / 16) + s < cfg0.N := by omega
  unfold addend blockSum
  rw [dif_pos hb, dif_pos hs]
  refine Finset.sum_congr rfl fun q _ => ?_
  unfold term
  refine congrArg₂ (· * ·) (congrArg₂ entry ?_ ?_) ?_
  · exact Blocks.input_block m c ⟨_, hb⟩ p q (ix2 r (col ⟨s, hs⟩ q))
      (by show r.val = 1024 * ((16 * (t.val / 16) + s) / 32) + p.val; omega)
      (by show 256 * s + q.val = 256 * ((16 * (t.val / 16) + s) % 16) + q.val; omega)
  · exact Blocks.bias_block m c ⟨_, hb⟩ q (col ⟨s, hs⟩ q)
      (by show 256 * s + q.val = 256 * ((16 * (t.val / 16) + s) % 16) + q.val; omega)
  · exact Blocks.weight_block m c ⟨_, hb⟩ q n (ix2 (col ⟨s, hs⟩ q) n')
      (by show 256 * s + q.val = 256 * ((16 * (t.val / 16) + s) % 16) + q.val; omega)
      (by show n'.val = 2048 * ((16 * (t.val / 16) + s) / 16 % 2) + n.val; omega)

end Cert.KernelIdeal.Accum
end
-- ==== Proof.KernelValue.lean ====
/-
  The kernel's result array is the specified result.

  The 16 output tiles (8 row blocks × 2 column blocks) are each written once, by the last of the tile's 16
  steps, with the clamp of the completed accumulator.  At an entry of the tile that is
  `max (0 + ∑ s < 16, block s of the contraction) 0`, which is the specification at that entry of the
  array.  Every entry of the array lies in exactly one tile, whose last step is
  `32 (row / 1024) + 16 (column / 2048) + 15`, so the array ends holding the specification everywhere.
-/
import proofs.«121180_j31825707663797_2_alg».proof.Proof.Accum

set_option maxRecDepth 16384

noncomputable section
open Idealize.ShloMosaic Idealize.ShloMosaic.TcCoe Idealize.SL.Sem Idealize.ShloMosaic.ValueIdx
open Idealize.ShloMosaic.Pipeline (Dat)

namespace Cert.KernelIdeal.KernelValue
open Cert.KernelIdeal Cert.KernelIdeal.Gen Cert.KernelIdeal.Value Cert.MaskedLinear
variable (m : (ℓ : Loc nD τ sig) → Buf (Elt Ideal) ℓ) (ρ : Dev nD → PrngReg)

/-- The specification at the kernel's arguments, as contents of the result array. -/
abbrev spec (c : Dev nD) : Buf (Elt Ideal) ((c : Thread nD τ).loc main_v2) :=
  result (m ((c : Thread nD τ).loc main_arg0)) (m ((c : Thread nD τ).loc main_arg1)) (m ((c : Thread nD τ).loc main_arg2))

/-- An entry of the tile a last step writes is the specification at the entry's place in the array. -/
theorem tile_entry (c : Dev nD) (t : Fin cfg0.N) (h15 : t.val % 16 = 15) (y : S1024x2048.Idx) (i : S8192x4096.Idx)
    (h0 : (i 0).val = 1024 * (t.val / 32) + (y 0).val) (h1 : (i 1).val = 2048 * (t.val / 16 % 2) + (y 1).val) :
    k0_pay3 ((outsAt0 m c t.val t.isLt).2) y = spec m c i := by
  obtain ⟨p, n, rfl⟩ : ∃ (p : Fin 1024) (n : Fin 2048), y = ix2 p n := ⟨y 0, y 1, eq_ix2 y⟩
  rw [Payload.pay3_apply, Accum.acc_after m c t (ix2 p n), h15]
  show max (0 + ∑ s ∈ Finset.range 16, Accum.addend m c (16 * (t.val / 16) + s) p n) 0 = _
  refine Eq.trans ?_ (result_of_blocks _ _ _ i)
  refine congrArg (max · 0) (congrArg (0 + ·) (Finset.sum_congr rfl fun s hs => ?_))
  exact Accum.addend_eq m c t s (Finset.mem_range.mp hs) p n (i 0) (i 1) h0 h1

/-- WHAT A WRITING STEP WRITES BACK is its tile of the specification. -/
theorem flushed_eq (c : Dev nD) (t : Fin cfg0.N) (hf : (cfg0.win 3).flush t = true) :
    (dats m 0 c).flushed 3 t = ((cfg0.win 3).blk t).view.read (Elt Ideal) (spec m c) := by
  have h15 : t.val % 16 = 15 := (flush0_3 t).mp hf
  obtain ⟨-, -, -, -, -, -, e0, e1⟩ := Blocks.idx_facts t
  rw [Accum.written_back m c t h15]
  funext y
  rw [View.read_apply]
  refine tile_entry m c t h15 y _ ?_ ?_
  · show win0_3.index t (0 : Fin 2) * 1024 + 1 * (y 0).val = 1024 * (t.val / 32) + (y 0).val
    rw [e0]; omega
  · show win0_3.index t (1 : Fin 2) * 2048 + 1 * (y 1).val = 2048 * (t.val / 16 % 2) + (y 1).val
    rw [e1]; omega

/-- Every entry of the array lies in the tile of some writing step. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 256 := N_0
  obtain ⟨t, ht⟩ : ∃ t : Fin cfg0.N, t.val = 32 * ((i 0).val / 1024) + 16 * ((i 1).val / 2048) + 15 :=
    ⟨⟨32 * ((i 0).val / 1024) + 16 * ((i 1).val / 2048) + 15, by omega⟩, rfl⟩
  obtain ⟨-, -, -, -, -, -, e0, e1⟩ := Blocks.idx_facts t
  refine ⟨t, (flush0_3 t).mpr (by omega), ?_⟩
  show i ∈ ((View.whole main_v2).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 2048 ≤ (i 1).val ∧ (i 1).val < win0_3.index t (1 : Fin 2) * 2048 + 2048
    rw [e1]; omega

/-- THE RESULT ARRAY after the run is the specification. -/
theorem final (c : Dev nD) : (dats m 0 c).arrAt 3 cfg0.N = spec m c :=
  (dats m 0 c).arrAt_eq_of_cover 3 (spec m c) (fun t hf => flushed_eq m c t hf) cover

/-- The kernel's run: it ends, faultless, with the result array at the specification and the arguments as they
    were. -/
theorem run : θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue
end
-- ==== Proof.RefValue.lean ====
/-
  The reference computes the specified result.

  Read one operation at a time, the reference masks the input against zero, adds the bias broadcast down the
  rows, selects the shifted entry or zero, contracts all 4096 columns against the weight in one product and
  clamps below at zero: at row `r`, column `n` this is `max (∑ j, e r j * w j n) 0`, the specification's
  own text.  Its comparison is "unordered or not equal", which on extended reals is "not equal".
-/
import proofs.«121180_j31825707663797_2_alg».proof.Proof.Gen.ReferenceIdeal.Read
import proofs.«121180_j31825707663797_2_alg».proof.Proof.Spec

noncomputable section

namespace Cert.ReferenceIdeal.RefValue

open Cert.ReferenceIdeal Cert.ReferenceIdeal.Read Idealize.ShloMosaic Idealize.ShloMosaic.ValueIdx Cert.MaskedLinear

/-- The product's left operand is read at the output's row and the contracted column, -/
theorem left_idx (r : Fin 8192) (n k : Fin 4096) : lidx_main_v6 (ix2 r n) k = ix2 r k :=
  funext fun a => Fin.ext (by match a with | ⟨0, _⟩ => rfl | ⟨1, _⟩ => rfl)

/-- its right operand at the contracted column and the output's column, -/
theorem right_idx (r : Fin 8192) (n k : Fin 4096) : ridx_main_v6 (ix2 r n) k = ix2 k n :=
  funext fun a => Fin.ext (by match a with | ⟨0, _⟩ => rfl | ⟨1, _⟩ => rfl)

/-- and the bias, broadcast to a row and then down the rows, at the column. -/
theorem bias_idx (r : Fin 8192) (k : Fin 4096) : idx_main_v2 (idx_main_v3 (ix2 r k)) = ix1 k :=
  funext fun a => Fin.ext (by match a with | ⟨0, _⟩ => rfl)

/-- The masked, shifted entry as the reference spells it. -/
theorem entry_eq (x0 : (⟨S8192x4096, .f32⟩ : BufTy).Contents (Elt Ideal)) (x2 : (⟨S4096, .f32⟩ : BufTy).Contents (Elt Ideal))
    (r : Fin 8192) (k : Fin 4096) :
    val_main_v5 (F := Ideal) x0 x2 (ix2 r k) = entry (x0 (ix2 r k)) (x2 (ix1 k)) := by
  rw [val_main_v5_apply, val_main_v1_apply, val_main_v4_apply, val_main_v0_apply, val_main_cst_apply,
    val_main_call0_v1_apply, val_main_call0_v0_apply, val_main_cst_0_apply, val_main_v3_apply, val_main_v2_apply,
    bias_idx]
  show Scalar.select (Ideal.cmp .une (x0 (ix2 r k)) (Ideal.ofBits .f32 0x00000000#32))
      (x0 (ix2 r k) + x2 (ix1 k)) (Ideal.ofBits .f32 0x00000000#32) = _
  rw [Ideal.ofBits_zero_f32]
  rfl

/-- THE REFERENCE'S RESULT is the specification, index by index. -/
theorem reference_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v7 (F := Ideal) x0 x1 x2 = result x0 x1 x2 := by
  funext i
  obtain ⟨r, n, rfl⟩ : ∃ (r : Fin 8192) (n : Fin 4096), i = ix2 r n := ⟨i 0, i 1, eq_ix2 i⟩
  rw [val_main_v7_apply, val_main_v6_apply, val_main_call1_v0_apply, val_main_call1_cst_apply]
  show max _ (Ideal.ofBits .f32 0x00000000#32) = max (∑ j : Fin 4096, term x0 x1 x2 r n j) 0
  rw [Ideal.ofBits_zero_f32]
  refine congrArg (max · 0) (Finset.sum_congr rfl fun k _ => ?_)
  rw [left_idx, right_idx, entry_eq]
  rfl

end Cert.ReferenceIdeal.RefValue

end
-- ==== Proof.lean ====
/-
  A masked, bias-shifted matrix product with a clamp at zero: the tiled kernel against the one-product reference.

  Both programs compute, for an input `x : [8192, 4096]`, a weight `w : [4096, 4096]` and a bias `b : [4096]`,

      out r n = max (∑ j, e r j * w j n) 0,      e r j = if x r j ≠ 0 then x r j + b j else 0

  (Proof/Spec.lean).  The reference does it in one product (Proof/RefValue.lean).  The kernel cuts the output
  into 8 × 2 tiles and the contracted axis into 16 blocks of 256; over a tile's 16 grid steps it accumulates
  the blocks' products from zero and writes the clamped sum at the last (Proof/Pieces.lean, Payload.lean,
  Blocks.lean, Accum.lean, KernelValue.lean).  On extended reals the kernel's narrowing of both operands is
  the identity, and regrouping the contraction into blocks uses only commutativity and associativity of
  addition (Proof/BlockSum.lean), so the precondition that the inputs are finite is never opened.

  The three frames: each kernel program's is its generated frame; the reference has no kernel, and its frame
  is its run with the result forgotten.  The idealization rewrote nothing, so there is nothing to preserve.
-/
import proofs.«121180_j31825707663797_2_alg».proof.Defs
import proofs.«121180_j31825707663797_2_alg».proof.Proof.Gen.Kernel
import proofs.«121180_j31825707663797_2_alg».proof.Proof.Gen.Kernel.Skeleton
import proofs.«121180_j31825707663797_2_alg».proof.Proof.Gen.Kernel.Launch
import proofs.«121180_j31825707663797_2_alg».proof.Proof.Gen.Kernel.Points
import proofs.«121180_j31825707663797_2_alg».proof.Proof.Gen.Kernel.Frame
import proofs.«121180_j31825707663797_2_alg».proof.Proof.Gen.KernelIdeal
import proofs.«121180_j31825707663797_2_alg».proof.Proof.Gen.KernelIdeal.Skeleton
import proofs.«121180_j31825707663797_2_alg».proof.Proof.Gen.KernelIdeal.Launch
import proofs.«121180_j31825707663797_2_alg».proof.Proof.Gen.KernelIdeal.Points
import proofs.«121180_j31825707663797_2_alg».proof.Proof.Gen.KernelIdeal.Frame
import proofs.«121180_j31825707663797_2_alg».proof.Proof.Gen.ReferenceIdeal
import proofs.«121180_j31825707663797_2_alg».proof.Proof.Gen.KernelIdeal.Value
import proofs.«121180_j31825707663797_2_alg».proof.Proof.Gen.ReferenceIdeal.Run
import proofs.«121180_j31825707663797_2_alg».proof.Proof.Gen.ReferenceIdeal.Read
import proofs.«121180_j31825707663797_2_alg».proof.Proof.Gen.Pre_finite_inputs
import proofs.«121180_j31825707663797_2_alg».proof.Proof.KernelValue
import proofs.«121180_j31825707663797_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments, the kernel ends with its result array at the
    specification of its arguments and the reference with its result at the specification of its own: the
    same extended reals, entry by entry. -/
theorem algebraic : Cert.algebraic_KernelIdeal_ReferenceIdeal := by
  intro m ρ m' ρ' _ hagree
  refine ⟨fun c => Cert.KernelIdeal.KernelValue.spec m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
